-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S27x128x128 : Shape := ⟨3, ![27, 128, 128]⟩
abbrev S27x24576 : Shape := ⟨2, ![27, 24576]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S27x128x128 : S_.BroadcastsInDim S27x128x128 (![] : Fin 0 → Fin S27x128x128.rank)
  reducesTo_S27x128x128_S_d0_1_2 : S27x128x128.ReducesTo [0, 1, 2] S_

variable [Facts]

def fn {F : FTy → Type} [FloatOps F] (main_arg0 : FVec F S65536x128 .f32) (main_arg1 : FVec F S27x128x128 .f32) (main_arg2 : IVec S27x24576 32) (main_arg3 : IVec S27x24576 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S27x128x128 .f32 := Host.absf main_arg1
  let main_cst_0 : FVec F S_ .f32 := constant S_ .f32 0x7F800000#32
  let main_v5 : FVec F S27x128x128 .f32 := broadcastInDim S27x128x128 ![] bcast_S_S27x128x128 main_cst_0
  let main_v6 : IVec S27x128x128 1 := cmpf .olt main_v4 main_v5
  let main_c_1 : IVec S_ 1 := constantI S_ 1 1#1
  let main_v7 : IVec S_ 1 := (fun x v => Host.reduce IntOp.andi x v reducesTo_S27x128x128_S_d0_1_2 h_S_) main_v6 main_c_1
  let main_v8 : IVec S_ 1 := andi main_v3 main_v7
  main_v8
-- ==== Kernel.lean ====
abbrev S65536x128 : Shape := ⟨2, ![65536, 128]⟩
abbrev S27x128x128 : Shape := ⟨3, ![27, 128, 128]⟩
abbrev S27x24576 : Shape := ⟨2, ![27, 24576]⟩
abbrev S_ : Shape := ⟨0, ![]⟩
abbrev S27x24576x1 : Shape := ⟨3, ![27, 24576, 1]⟩
abbrev S27x24576x128 : Shape := ⟨3, ![27, 24576, 128]⟩
abbrev S1x24576x128 : Shape := ⟨3, ![1, 24576, 128]⟩
abbrev S1x128x128 : Shape := ⟨3, ![1, 128, 128]⟩
abbrev S24576x128 : Shape := ⟨2, ![24576, 128]⟩
abbrev S128x128 : Shape := ⟨2, ![128, 128]⟩

abbrev nBuf : Space → Nat
  | .hbm => 27
  | .vmem => 6
  | .smem => 0
  | _ => 0

abbrev bufTy : (tb : Table) → Fin (tcTables nBuf tb) → BufTy
  | .hbm, ⟨0, _⟩ => ⟨S65536x128, .f32⟩
  | .hbm, ⟨1, _⟩ => ⟨S27x128x128, .f32⟩
  | .hbm, ⟨2, _⟩ => ⟨S27x24576, .i32⟩
  | .hbm, ⟨3, _⟩ => ⟨S27x24576, .i32⟩
  | .hbm, ⟨4, _⟩ => ⟨S65536x128, .bf16⟩
  | .hbm, ⟨5, _⟩ => ⟨S27x128x128, .bf16⟩
  | .hbm, ⟨6, _⟩ => ⟨S_, .i32⟩
  | .hbm, ⟨7, _⟩ => ⟨S27x24576, .i32⟩
  | .hbm, ⟨8, _⟩ => ⟨S27x24576, .i1⟩
  | .hbm, ⟨9, _⟩ => ⟨S_, .i32⟩
  | .hbm, ⟨10, _⟩ => ⟨S27x24576, .i32⟩
  | .hbm, ⟨11, _⟩ => ⟨S27x24576, .i32⟩
  | .hbm, ⟨12, _⟩ => ⟨S27x24576, .i32⟩
  | .hbm, ⟨13, _⟩ => ⟨S27x24576x1, .i32⟩
  | .hbm, ⟨14, _⟩ => ⟨S27x24576x128, .bf16⟩
  | .hbm, ⟨15, _⟩ => ⟨S27x24576x128, .f32⟩
  | .hbm, ⟨16, _⟩ => ⟨S_, .f32⟩
  | .hbm, ⟨17, _⟩ => ⟨S65536x128, .f32⟩
  | .hbm, ⟨18, _⟩ => ⟨S_, .i32⟩
  | .hbm, ⟨19, _⟩ => ⟨S27x24576, .i32⟩
  | .hbm, ⟨20, _⟩ => ⟨S27x24576, .i1⟩
  | .hbm, ⟨21, _⟩ => ⟨S_, .i32⟩
  | .hbm, ⟨22, _⟩ => ⟨S27x24576, .i32⟩
  | .hbm, ⟨23, _⟩ => ⟨S27x24576, .i32⟩
  | .hbm, ⟨24, _⟩ => ⟨S27x24576, .i32⟩
  | .hbm, ⟨25, _⟩ => ⟨S27x24576x1, .i32⟩
  | .hbm, ⟨26, _⟩ => ⟨S65536x128, .f32⟩
  | .local _ .vmem, ⟨0, _⟩ => ⟨S1x24576x128, .bf16⟩
  | .local _ .vmem, ⟨1, _⟩ => ⟨S1x24576x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x24576x128, .f32⟩
  | .local _ .vmem, ⟨5, _⟩ => ⟨S1x24576x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24576x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24576x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  bcast_S_S27x24576 : S_.BroadcastsInDim S27x24576 (![] : Fin 0 → Fin S27x24576.rank)
  bcast_S27x24576_S27x24576x1_0_1 : S27x24576.BroadcastsInDim S27x24576x1 (![0, 1] : Fin 2 → Fin S27x24576x1.rank)
  inb_S1x24576x128_S1x24576x128_0_0_0 : ∀ a, (![0, 0, 0] : Fin 3 → Nat) a + S1x24576x128.size a ≤ S1x24576x128.size a
  h_S1x24576x128 : 0 < S1x24576x128.numel
  shapeCasts_S1x24576x128_S24576x128 : S1x24576x128.ShapeCasts S24576x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S24576x128_S1x24576x128 : S24576x128.ShapeCasts S1x24576x128
  bcast_S_S65536x128 : S_.BroadcastsInDim S65536x128 (![] : Fin 0 → Fin S65536x128.rank)
  gather_S65536x128_S27x24576x1_S27x24576x128_2_0_n_n_0_2_1128_wf : GatherDims.WF S65536x128 S27x24576x1 S27x24576x128 [2] [0] [] [0] [] 2 ![1, 128]
  dot_S24576x128_S128x128_S24576x128_1_0_0_1_n_n_wf : DotDims.WF S24576x128 S128x128 S24576x128 [1] [0] [0] [1] [] []
  scatter_S65536x128_S27x24576x1_S27x24576x128_2_0_0_2_wf : ScatterDims.WF S65536x128 S27x24576x1 S27x24576x128 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x24576x128.size a ≤ S27x24576x128.size a
  hwx0_0 : ∀ i : grid0.Coords, EltTy.bits .bf16 = 32 ∨ (Rect.block (s := S27x24576x128) S1x24576x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S27x128x128.size a
  hwx0_1 : ∀ i : grid0.Coords, EltTy.bits .bf16 = 32 ∨ (Rect.block (s := S27x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x24576x128.size a ≤ S27x24576x128.size a
  hwx0_2 : ∀ i : grid0.Coords, EltTy.bits .f32 = 32 ∨ (Rect.block (s := S27x24576x128) S1x24576x128.size (cc0_transform_2 i) (hinb0_2 i)).WholeWords (EltTy.packing .f32)

variable [Facts₀]

def gather_S65536x128_S27x24576x1_S27x24576x128_2_0_n_n_0_2_1128 : GatherDims S65536x128 S27x24576x1 S27x24576x128 where
  offsetDims := [2]
  collapsedSliceDims := [0]
  operandBatchingDims := []
  startIndicesBatchingDims := []
  startIndexMap := [0]
  indexVectorDim := 2
  sliceSizes := ![1, 128]
  wf := gather_S65536x128_S27x24576x1_S27x24576x128_2_0_n_n_0_2_1128_wf
def dot_S24576x128_S128x128_S24576x128_1_0_0_1_n_n : DotDims S24576x128 S128x128 S24576x128 where
  lhsContracting := [1]
  rhsContracting := [0]
  lhsNonContracting := [0]
  rhsNonContracting := [1]
  lhsBatch := []
  rhsBatch := []
  wf := dot_S24576x128_S128x128_S24576x128_1_0_0_1_n_n_wf
def scatter_S65536x128_S27x24576x1_S27x24576x128_2_0_0_2 : ScatterDims S65536x128 S27x24576x1 S27x24576x128 where
  updateWindowDims := [2]
  insertedWindowDims := [0]
  scatterDimsToOperandDims := [0]
  indexVectorDim := 2
  wf := scatter_S65536x128_S27x24576x1_S27x24576x128_2_0_0_2_wf

abbrev win0_0 : Pipeline.Window sig grid0 :=
  Pipeline.Window.ofSpec (Memref.whole main_v8) S1x24576x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x24576x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x128 : Shape := ⟨2, ![65536, 128]⟩
abbrev S27x128x128 : Shape := ⟨3, ![27, 128, 128]⟩
abbrev S27x24576 : Shape := ⟨2, ![27, 24576]⟩
abbrev S_ : Shape := ⟨0, ![]⟩
abbrev S27x24576x1 : Shape := ⟨3, ![27, 24576, 1]⟩
abbrev S27x24576x128 : Shape := ⟨3, ![27, 24576, 128]⟩

abbrev nBuf : Space → Nat
  | .hbm => 25
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S27x128x128, .f32⟩
  | .hbm, ⟨2, _⟩ => ⟨S27x24576, .i32⟩
  | .hbm, ⟨3, _⟩ => ⟨S27x24576, .i32⟩
  | .hbm, ⟨4, _⟩ => ⟨S_, .i32⟩
  | .hbm, ⟨5, _⟩ => ⟨S27x24576, .i32⟩
  | .hbm, ⟨6, _⟩ => ⟨S27x24576, .i1⟩
  | .hbm, ⟨7, _⟩ => ⟨S_, .i32⟩
  | .hbm, ⟨8, _⟩ => ⟨S27x24576, .i32⟩
  | .hbm, ⟨9, _⟩ => ⟨S27x24576, .i32⟩
  | .hbm, ⟨10, _⟩ => ⟨S27x24576, .i32⟩
  | .hbm, ⟨11, _⟩ => ⟨S27x24576x1, .i32⟩
  | .hbm, ⟨12, _⟩ => ⟨S27x24576x128, .f32⟩
  | .hbm, ⟨13, _⟩ => ⟨S27x24576x128, .f32⟩
  | .hbm, ⟨14, _⟩ => ⟨S_, .f32⟩
  | .hbm, ⟨15, _⟩ => ⟨S65536x128, .f32⟩
  | .hbm, ⟨16, _⟩ => ⟨S_, .i32⟩
  | .hbm, ⟨17, _⟩ => ⟨S27x24576, .i32⟩
  | .hbm, ⟨18, _⟩ => ⟨S27x24576, .i1⟩
  | .hbm, ⟨19, _⟩ => ⟨S_, .i32⟩
  | .hbm, ⟨20, _⟩ => ⟨S27x24576, .i32⟩
  | .hbm, ⟨21, _⟩ => ⟨S27x24576, .i32⟩
  | .hbm, ⟨22, _⟩ => ⟨S27x24576, .i32⟩
  | .hbm, ⟨23, _⟩ => ⟨S27x24576x1, .i32⟩
  | .hbm, ⟨24, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S27x24576 : S_.BroadcastsInDim S27x24576 (![] : Fin 0 → Fin S27x24576.rank)
  bcast_S27x24576_S27x24576x1_0_1 : S27x24576.BroadcastsInDim S27x24576x1 (![0, 1] : Fin 2 → Fin S27x24576x1.rank)
  bcast_S_S65536x128 : S_.BroadcastsInDim S65536x128 (![] : Fin 0 → Fin S65536x128.rank)
  gather_S65536x128_S27x24576x1_S27x24576x128_2_0_n_n_0_2_1128_wf : GatherDims.WF S65536x128 S27x24576x1 S27x24576x128 [2] [0] [] [0] [] 2 ![1, 128]
  dot_S27x24576x128_S27x128x128_S27x24576x128_2_1_1_2_0_0_wf : DotDims.WF S27x24576x128 S27x128x128 S27x24576x128 [2] [1] [1] [2] [0] [0]
  scatter_S65536x128_S27x24576x1_S27x24576x128_2_0_0_2_wf : ScatterDims.WF S65536x128 S27x24576x1 S27x24576x128 [2] [0] [0] 2

variable [Facts₀]

def gather_S65536x128_S27x24576x1_S27x24576x128_2_0_n_n_0_2_1128 : GatherDims S65536x128 S27x24576x1 S27x24576x128 where
  offsetDims := [2]
  collapsedSliceDims := [0]
  operandBatchingDims := []
  startIndicesBatchingDims := []
  startIndexMap := [0]
  indexVectorDim := 2
  sliceSizes := ![1, 128]
  wf := gather_S65536x128_S27x24576x1_S27x24576x128_2_0_n_n_0_2_1128_wf
def dot_S27x24576x128_S27x128x128_S27x24576x128_2_1_1_2_0_0 : DotDims S27x24576x128 S27x128x128 S27x24576x128 where
  lhsContracting := [2]
  rhsContracting := [1]
  lhsNonContracting := [1]
  rhsNonContracting := [2]
  lhsBatch := [0]
  rhsBatch := [0]
  wf := dot_S27x24576x128_S27x128x128_S27x24576x128_2_1_1_2_0_0_wf
def scatter_S65536x128_S27x24576x1_S27x24576x128_2_0_0_2 : ScatterDims S65536x128 S27x24576x1 S27x24576x128 where
  updateWindowDims := [2]
  insertedWindowDims := [0]
  scatterDimsToOperandDims := [0]
  indexVectorDim := 2
  wf := scatter_S65536x128_S27x24576x1_S27x24576x128_2_0_0_2_wf

class Facts : Prop extends Facts₀ where

variable [Facts]
-- ==== Proof.OffsetProducts.lean ====
/-
  The arithmetic common to both programs, stated once over plain index sets.

  A sparse 3×3×3 convolution is carried out as 27 independent passes, one per kernel offset `k`.  Pass `k`
  takes 24576 gathered input rows `g[k, p, ·]` (each a vector of 128 input channels) and multiplies them by
  the 128 × 128 weight slab `w[k, ·, ·]`:

      prod[k, p, o] = ∑_{c < 128} g[k, p, c] · w[k, c, o].

  `offsetProducts g w` is that array as a function of the index `(k, p, o)`.  Nothing about where `g` came
  from (a gather of rows) or where `prod` goes (a scatter-add over rows) enters here.
-/
import Idealize.ShloMosaic.PureOps.Ideal
import Idealize.ShloMosaic.Lib.ValueIdx

noncomputable section

open scoped BigOperators

namespace Cert.SparseConv

open Idealize.ShloMosaic Idealize.ShloMosaic.ValueIdx

/-- The 27 per-offset matrix products, index by index: entry `(k, p, o)` is the dot product over the 128 input
    channels `c` of gathered row `(k, p)` with column `o` of weight slab `k`. -/
def offsetProducts (g : (⟨3, ![27, 24576, 128]⟩ : Shape).Idx → EReal) (w : (⟨3, ![27, 128, 128]⟩ : Shape).Idx → EReal) :
    (⟨3, ![27, 24576, 128]⟩ : Shape).Idx → EReal :=
  fun i => ∑ c : Fin 128, g (ix3 (i 0) (i 1) c) * w (ix3 (i 0) c (i 2))

/-- The same entry with its three coordinates named. -/
theorem offsetProducts_apply (g : (⟨3, ![27, 24576, 128]⟩ : Shape).Idx → EReal) (w : (⟨3, ![27, 128, 128]⟩ : Shape).Idx → EReal)
    (k : Fin 27) (p : Fin 24576) (o : Fin 128) :
    offsetProducts g w (ix3 k p o) = ∑ c : Fin 128, g (ix3 k p c) * w (ix3 k c o) := rfl

end Cert.SparseConv

end
-- ==== Proof.MatmulBlock.lean ====
/-
  What the kernel body computes at one grid point, read at an index.

  At grid point `k` the body holds one block of gathered rows `x0 : [1, 24576, 128]` and one weight slab
  `x1 : [1, 128, 128]`.  It drops the leading unit axis of each, multiplies the [24576, 128] matrix by the
  [128, 128] matrix on the matrix unit into a zero accumulator, and puts the unit axis back.  With exact
  arithmetic the accumulator's zero contributes nothing, so entry `(0, p, o)` of what is stored is

      ∑_{c < 128} x0[0, p, c] · x1[0, c, o].
-/
import proofs.«109637_j35802847379859_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The matrix product's left operand index at output `(p, o)` and contraction position `q`: row `p` … -/
theorem lhs_row (j : S24576x128.Idx) (q : dot_S24576x128_S128x128_S24576x128_1_0_0_1_n_n.contr.Idx) :
    (dot_S24576x128_S128x128_S24576x128_1_0_0_1_n_n.lhsIdx j q 0).val = (j 0).val := by
  unfold DotDims.lhsIdx
  rw [dif_neg (show ¬(0 : Fin S24576x128.rank) ∈ dot_S24576x128_S128x128_S24576x128_1_0_0_1_n_n.lhsBatch by decide),
    dif_pos (show (0 : Fin S24576x128.rank) ∈ dot_S24576x128_S128x128_S24576x128_1_0_0_1_n_n.lhsNonContracting by decide)]
  rfl
/-- … and column the contraction position; -/
theorem lhs_col (j : S24576x128.Idx) (q : dot_S24576x128_S128x128_S24576x128_1_0_0_1_n_n.contr.Idx) :
    (dot_S24576x128_S128x128_S24576x128_1_0_0_1_n_n.lhsIdx j q 1).val = (q ⟨0, by decide⟩).val :=
  dot_S24576x128_S128x128_S24576x128_1_0_0_1_n_n.lhsIdx_val_of_single rfl j q
/-- the right operand's: row the contraction position … -/
theorem rhs_row (j : S24576x128.Idx) (q : dot_S24576x128_S128x128_S24576x128_1_0_0_1_n_n.contr.Idx) :
    (dot_S24576x128_S128x128_S24576x128_1_0_0_1_n_n.rhsIdx j q 0).val = (q ⟨0, by decide⟩).val :=
  dot_S24576x128_S128x128_S24576x128_1_0_0_1_n_n.rhsIdx_val_of_single rfl j q
/-- … and column `o`. -/
theorem rhs_col (j : S24576x128.Idx) (q : dot_S24576x128_S128x128_S24576x128_1_0_0_1_n_n.contr.Idx) :
    (dot_S24576x128_S128x128_S24576x128_1_0_0_1_n_n.rhsIdx j q 1).val = (j 1).val := by
  unfold DotDims.rhsIdx
  rw [dif_neg (show ¬(1 : Fin S128x128.rank) ∈ dot_S24576x128_S128x128_S24576x128_1_0_0_1_n_n.rhsBatch by decide),
    dif_pos (show (1 : Fin S128x128.rank) ∈ dot_S24576x128_S128x128_S24576x128_1_0_0_1_n_n.rhsNonContracting by decide)]
  rfl

/-- The [24576, 128] × [128, 128] product into the zero accumulator, at `(p, o)`: the sum over the 128 shared
    channels of the left matrix's row `p` against the right matrix's column `o`. -/
theorem product_apply (a : FVec Ideal S24576x128 .bf16) (b : FVec Ideal S128x128 .bf16) (p : Fin 24576) (o : Fin 128) :
    matmul dot_S24576x128_S128x128_S24576x128_1_0_0_1_n_n none a b (constant S24576x128 .f32 0x00000000#32) (ix2 p o)
      = ∑ c : Fin 128, a (ix2 p c) * b (ix2 c o) := by
  show FloatOps.matmul _ _ _ _ _ _ = _
  rw [Ideal.matmul_constant_zero_apply,
    ← Equiv.sum_comp (contrEquiv1 dot_S24576x128_S128x128_S24576x128_1_0_0_1_n_n 128 rfl rfl).symm]
  refine Finset.sum_congr rfl fun c _ => ?_
  have hc := contrEquiv1_symm_val dot_S24576x128_S128x128_S24576x128_1_0_0_1_n_n 128 rfl rfl c
  have el : dot_S24576x128_S128x128_S24576x128_1_0_0_1_n_n.lhsIdx (ix2 p o)
      ((contrEquiv1 dot_S24576x128_S128x128_S24576x128_1_0_0_1_n_n 128 rfl rfl).symm c) = ix2 p c :=
    funext fun d => Fin.ext (by
      match d with
      | ⟨0, _⟩ => exact lhs_row _ _
      | ⟨1, _⟩ => exact (lhs_col _ _).trans hc)
  have er : dot_S24576x128_S128x128_S24576x128_1_0_0_1_n_n.rhsIdx (ix2 p o)
      ((contrEquiv1 dot_S24576x128_S128x128_S24576x128_1_0_0_1_n_n 128 rfl rfl).symm c) = ix2 c o :=
    funext fun d => Fin.ext (by
      match d with
      | ⟨0, _⟩ => exact (rhs_row _ _).trans hc
      | ⟨1, _⟩ => exact rhs_col _ _)
  rw [el, er]

/-- Dropping the leading unit axis of a [1, 24576, 128] block reads entry `(0, p, c)` at `(p, c)`. -/
theorem rows_apply (x0 : Vec Ideal S1x24576x128 .bf16) (p : Fin 24576) (c : Fin 128) :
    shapeCast S24576x128 x0 shapeCasts_S1x24576x128_S24576x128 (ix2 p c) = x0 (ix3 (0 : Fin 1) p c) := by
  refine (shapeCast_dropUnit_apply ![24576, 128] x0 shapeCasts_S1x24576x128_S24576x128 (ix2 p c)).trans (congrArg x0 ?_)
  funext d
  match d with
  | ⟨0, _⟩ => rfl
  | ⟨1, _⟩ => rfl
  | ⟨2, _⟩ => rfl
/-- Dropping the leading unit axis of a [1, 128, 128] slab reads entry `(0, c, o)` at `(c, o)`. -/
theorem slab_apply (x1 : Vec Ideal S1x128x128 .bf16) (c : Fin 128) (o : Fin 128) :
    shapeCast S128x128 x1 shapeCasts_S1x128x128_S128x128 (ix2 c o) = x1 (ix3 (0 : Fin 1) c o) := by
  refine (shapeCast_dropUnit_apply ![128, 128] x1 shapeCasts_S1x128x128_S128x128 (ix2 c o)).trans (congrArg x1 ?_)
  funext d
  match d with
  | ⟨0, _⟩ => rfl
  | ⟨1, _⟩ => rfl
  | ⟨2, _⟩ => rfl

/-- WHAT THE BODY STORES, at `(u, p, o)` of the output block (`u` the unit axis's one coordinate): row `p` of the
    gathered block against column `o` of the weight slab, summed over the 128 input channels. -/
theorem stored_apply (x0 : Vec Ideal S1x24576x128 .bf16) (x1 : Vec Ideal S1x128x128 .bf16) (u : Fin 1) (p : Fin 24576) (o : Fin 128) :
    k0_pay1 (F := Ideal) x0 x1 (ix3 u p o) = ∑ c : Fin 128, x0 (ix3 (0 : Fin 1) p c) * x1 (ix3 (0 : Fin 1) c o) := by
  unfold k0_pay1
  refine (shapeCast_addUnit_apply ![24576, 128] _ shapeCasts_S24576x128_S1x24576x128 (ix3 u p o)).trans ?_
  have hj : (fun a : Fin 2 => (ix3 u p o : S1x24576x128.Idx) a.succ) = ix2 p o := by
    funext d
    match d with
    | ⟨0, _⟩ => rfl
    | ⟨1, _⟩ => rfl
  rw [hj]
  refine (product_apply _ _ p o).trans ?_
  exact Finset.sum_congr rfl fun c _ => by rw [rows_apply, slab_apply]

end Cert.KernelIdeal.Block

end
-- ==== Proof.KernelProducts.lean ====
/-
  The array the 27 grid points leave behind: the per-offset products of the gathered rows and the weights.

  Grid point `k` fetches block `k` of the gathered rows (`[k, ·, ·]`, all 24576 pairs) and weight slab `k`, and
  writes back block `k` of the result.  The three windows move together: each one's block index is `(k, 0, 0)`.
  So what point `k` writes back is block `k` of ONE whole-array function, `offsetProducts` of the gathered rows
  and the weights as the region finds them; the 27 blocks tile the result, hence the array ends at that function.
-/
import proofs.«109637_j35802847379859_2_alg».proof.Proof.Gen.KernelIdeal.Frame
import proofs.«109637_j35802847379859_2_alg».proof.Proof.OffsetProducts
import proofs.«109637_j35802847379859_2_alg».proof.Proof.MatmulBlock
import Idealize.ShloMosaic.Lib.Pipeline.Value
import Idealize.ShloMosaic.Lib.ValueIdx

set_option maxRecDepth 16384

noncomputable section

open scoped BigOperators

namespace Cert.KernelIdeal.Products

open Cert.KernelIdeal Cert.KernelIdeal.Gen Idealize.ShloMosaic Idealize.ShloMosaic.TcCoe Idealize.SL.Sem
open Idealize.ShloMosaic.ValueIdx
open Idealize.ShloMosaic.Pipeline (Dat)
open Cert.SparseConv

variable (m : (ℓ : Loc nD τ sig) → Buf (Elt Ideal) ℓ) (ρ : Dev nD → PrngReg)

theorem hz : (![0, 0, 0] : Fin 3 → Nat) = fun _ => 0 := funext fun a => by fin_cases a <;> rfl

/-- At grid point `k` every window's block index is `(k, 0, 0)`: offset `k`, the whole of the other two axes. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The gathered rows as the region finds them, typed over the literal shape. -/
abbrev gathered (c : Dev nD) : S27x24576x128.Idx → EReal := V m c main_v8
/-- The weights as the region finds them, typed over the literal shape. -/
abbrev weights (c : Dev nD) : S27x128x128.Idx → EReal := V m c main_v1

/-- Entry `(0, p, ch)` of the gathered-rows block at point `t` is entry `(t, p, ch)` of the gathered rows. -/
theorem rows_block (c : Dev nD) (t : Fin cfg0.N) (x : S1x24576x128.Idx) (i : S27x24576x128.Idx)
    (h0 : (i 0).val = t.val) (h1 : (i 1).val = (x 1).val) (h2 : (i 2).val = (x 2).val) :
    (iblk m c 0 t : Vec Ideal S1x24576x128 .bf16) x = gathered m c i := by
  obtain ⟨e0, e1, e2, -⟩ := block_index t
  have hx0 : (x 0).val < 1 := (x 0).isLt
  unfold iblk
  rw [View.read_apply]
  show V m c main_v8 _ = V m c main_v8 _
  congr 1
  funext a
  apply Fin.ext
  match a with
  | ⟨0, _⟩ => show win0_0.index t (0 : Fin 3) * 1 + 1 * (x 0).val = (i 0).val; omega
  | ⟨1, _⟩ => show win0_0.index t (1 : Fin 3) * 24576 + 1 * (x 1).val = (i 1).val; omega
  | ⟨2, _⟩ => show win0_0.index t (2 : Fin 3) * 128 + 1 * (x 2).val = (i 2).val; omega

/-- Entry `(0, ch, o)` of the weight block at point `t` is entry `(t, ch, o)` of the weights. -/
theorem slab_block (c : Dev nD) (t : Fin cfg0.N) (x : S1x128x128.Idx) (i : S27x128x128.Idx)
    (h0 : (i 0).val = t.val) (h1 : (i 1).val = (x 1).val) (h2 : (i 2).val = (x 2).val) :
    (iblk m c 1 t : Vec Ideal S1x128x128 .bf16) x = weights m c i := by
  obtain ⟨-, -, -, e0, e1, e2, -⟩ := block_index t
  have hx0 : (x 0).val < 1 := (x 0).isLt
  unfold iblk
  rw [View.read_apply]
  show V m c main_v1 _ = V m c main_v1 _
  congr 1
  funext a
  apply Fin.ext
  match a with
  | ⟨0, _⟩ => show win0_1.index t (0 : Fin 3) * 1 + 1 * (x 0).val = (i 0).val; omega
  | ⟨1, _⟩ => show win0_1.index t (1 : Fin 3) * 128 + 1 * (x 1).val = (i 1).val; omega
  | ⟨2, _⟩ => show win0_1.index t (2 : Fin 3) * 128 + 1 * (x 2).val = (i 2).val; omega

/-- What the body stores from two blocks that are block `k` of `g` and of `w`, at `y`, is `offsetProducts g w` at
    the array index `(k, y 1, y 2)`. -/
theorem stored_eq (x0 : Vec Ideal S1x24576x128 .bf16) (x1 : Vec Ideal S1x128x128 .bf16)
    (g : S27x24576x128.Idx → EReal) (w : S27x128x128.Idx → EReal) (k : Fin 27)
    (hg : ∀ (p : Fin 24576) (ch : Fin 128), x0 (ix3 (0 : Fin 1) p ch) = g (ix3 k p ch))
    (hw : ∀ (ch : Fin 128) (o : Fin 128), x1 (ix3 (0 : Fin 1) ch o) = w (ix3 k ch o))
    (y : S1x24576x128.Idx) (i : S27x24576x128.Idx)
    (h0 : (i 0).val = k.val) (h1 : (i 1).val = (y 1).val) (h2 : (i 2).val = (y 2).val) :
    k0_pay1 (F := Ideal) x0 x1 y = offsetProducts g w i := by
  obtain ⟨u, p, o, rfl⟩ : ∃ (u : Fin 1) (p : Fin 24576) (o : Fin 128), y = ix3 u p o := ⟨y 0, y 1, y 2, eq_ix3 y⟩
  obtain rfl : i = ix3 k p o := by
    funext a
    apply Fin.ext
    match a with
    | ⟨0, _⟩ => exact h0
    | ⟨1, _⟩ => exact h1
    | ⟨2, _⟩ => exact h2
  rw [Cert.KernelIdeal.Block.stored_apply, offsetProducts_apply]
  exact Finset.sum_congr rfl fun ch _ => by rw [hg, hw]

/-- WHAT POINT `t` WRITES BACK is block `t` of `offsetProducts` of the gathered rows and the weights. -/
theorem flushed_eq (c : Dev nD) (t : Fin cfg0.N) :
    (dats m 0 c).flushed 2 t = ((cfg0.win 2).blk t).view.read (Elt Ideal) (offsetProducts (gathered m c) (weights m c)) := by
  show (cfg0.win 2).cut (grid0.coords t) ((dats m 0 c).after 2 t) = _
  rw [after0_2]
  unfold out0_2
  rw [View.canon_unit_zero hz]
  simp only [View.ld_unit_zero (S := S1x24576x128) hz, View.ld_unit_zero (S := S1x128x128) hz]
  obtain ⟨-, -, -, -, -, -, e0, e1, e2⟩ := block_index t
  have hN : cfg0.N = 27 := N_0
  funext j
  rw [View.read_apply]
  have hj0 : (j 0).val < 1 := (j 0).isLt
  refine stored_eq (iblk m c 0 t) (iblk m c 1 t) (gathered m c) (weights m c) ⟨t.val, by omega⟩ ?_ ?_ j _ ?_ ?_ ?_
  · intro p ch
    exact rows_block m c t _ _ rfl rfl rfl
  · intro ch o
    exact slab_block m c t _ _ rfl rfl rfl
  · show win0_2.index t (0 : Fin 3) * 1 + 1 * (j 0).val = t.val; omega
  · show win0_2.index t (1 : Fin 3) * 24576 + 1 * (j 1).val = (j 1).val; omega
  · show win0_2.index t (2 : Fin 3) * 128 + 1 * (j 2).val = (j 2).val; omega

/-- An index of the result is in point `t`'s block iff each coordinate is in the block's range on its axis. -/
theorem mem_blk (t : Fin cfg0.N) (i : S27x24576x128.Idx) :
    i ∈ ((cfg0.win 2).blk t).view.set ↔ ∀ a : Fin 3, win0_2.index t a * S1x24576x128.size a ≤ (i a).val ∧ (i a).val < win0_2.index t a * S1x24576x128.size a + S1x24576x128.size a := by
  show i ∈ ((View.whole main_v9).slice (win0_2.rect t)).set ↔ _
  rw [View.set_slice_whole, Rect.mem_set_unit]
  exact Iff.rfl

/-- The 27 blocks tile the result: index `(k, p, o)` lies in point `k`'s block. -/
theorem covered (i : S27x24576x128.Idx) :
    ∃ t : Fin cfg0.N, (cfg0.win 2).flush t = true ∧ i ∈ ((cfg0.win 2).blk t).view.set := by
  have hN : cfg0.N = 27 := N_0
  have hi0 : (i 0).val < 27 := (i 0).isLt
  have hi1 : (i 1).val < 24576 := (i 1).isLt
  have hi2 : (i 2).val < 128 := (i 2).isLt
  obtain ⟨t, ht⟩ : ∃ t : Fin cfg0.N, t.val = (i 0).val := ⟨⟨(i 0).val, by omega⟩, rfl⟩
  refine ⟨t, flush0_2 t, ?_⟩
  obtain ⟨-, -, -, -, -, -, e0, e1, e2⟩ := block_index t
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 24576 ≤ (i 1).val ∧ (i 1).val < win0_2.index t (1 : Fin 3) * 24576 + 24576; omega
  | ⟨2, _⟩ => show win0_2.index t (2 : Fin 3) * 128 ≤ (i 2).val ∧ (i 2).val < win0_2.index t (2 : Fin 3) * 128 + 128; omega

/-- THE RESULT ARRAY after the region: the per-offset products of the gathered rows and the weights. -/
theorem final (c : Dev nD) : (dats m 0 c).arrAt 2 cfg0.N = offsetProducts (gathered m c) (weights m c) :=
  (dats m 0 c).arrAt_eq_of_cover 2 (offsetProducts (gathered m c) (weights m c)) (fun t _ => flushed_eq m c t) covered

end Cert.KernelIdeal.Products

end
-- ==== Proof.KernelRun.lean ====
/-
  The idealized kernel's run, read: its result as one function of the four arguments.

  Around the 27-point region the program works on the host.  Before it: the activations and the weights change float
  format (the identity on extended reals), and the gather picks, for each offset `k` and pair `p`, input row
  `imap[k, p]` (a negative index first wrapped by 65536).  After it: the scatter-add starts from the zero array
  `[65536, 128]` and adds product row `(k, p)` onto output row `omap[k, p]` (wrapped the same way).  The region
  itself leaves the per-offset products (`Products.final`).  So the result is

      scatter-add( zeros, wrap(omap), offsetProducts( gather(in_feats, wrap(imap)), kernel ) ).
-/
import proofs.«109637_j35802847379859_2_alg».proof.Proof.KernelProducts
import Idealize.ShloMosaic.Lib.StableHlo.Run

set_option maxRecDepth 16384

noncomputable section

namespace Cert.KernelIdeal.Products

open Cert.KernelIdeal Cert.KernelIdeal.Gen Idealize.ShloMosaic Idealize.ShloMosaic.TcCoe Idealize.SL.Sem
open Idealize.ShloMosaic.StableHlo
open Cert.SparseConv

/-- Row indices as the gather and the scatter-add take them: a negative index wrapped by the row count 65536, then
    given a trailing unit axis. -/
def wrapRows (idx : IVec S27x24576 32) : IVec S27x24576x1 32 :=
  broadcastInDim S27x24576x1 ![0, 1] bcast_S27x24576_S27x24576x1_0_1
    (select (cmpi .slt idx (broadcastInDim S27x24576 ![] bcast_S_S27x24576 (constantI S_ 32 0#32)))
      (addi idx (broadcastInDim S27x24576 ![] bcast_S_S27x24576 (constantI S_ 32 65536#32))) idx)

/-- The rows the matrix products consume: input row `imap[k, p]` for each offset `k` and pair `p`. -/
def gatheredRows (x0 : S65536x128.Idx → EReal) (x2 : IVec S27x24576 32) : S27x24576x128.Idx → EReal :=
  Host.gather gather_S65536x128_S27x24576x1_S27x24576x128_2_0_n_n_0_2_1128
    (truncf (F := Ideal) (φ := .f32) .bf16 x0 bitsLt_bf16_f32) (wrapRows x2)

/-- THE KERNEL'S RESULT as a function of the arguments: the per-offset products of the gathered rows and the weights,
    each product row added onto the output row its `omap` entry names, from zero. -/
def result (x0 : S65536x128.Idx → EReal) (x1 : S27x128x128.Idx → EReal) (x2 x3 : IVec S27x24576 32) : S65536x128.Idx → EReal :=
  Host.scatterAdd (F := Ideal) (φ := .f32) scatter_S65536x128_S27x24576x1_S27x24576x128_2_0_0_2
    (broadcastInDim S65536x128 ![] bcast_S_S65536x128 (constant (F := Ideal) S_ .f32 0x00000000#32))
    (wrapRows x3)
    (offsetProducts (gatheredRows x0 x2) (truncf (F := Ideal) (φ := .f32) .bf16 x1 bitsLt_bf16_f32))

variable (m : (ℓ : Loc nD τ sig) → Buf (Elt Ideal) ℓ) (ρ : Dev nD → PrngReg)

/-- The region finds the gathered rows of the arguments … -/
theorem gathered_eq (c : Dev nD) :
    gathered m c = gatheredRows (m ((c.tc : Thread nD τ).loc main_arg0)) (m ((c.tc : Thread nD τ).loc main_arg2)) := by
  show StableHlo.after hostOps0 (fun b => m (c, b)) (Proc.devRef .tc main_v8) = _
  after_results <;> rfl
/-- … and the weights in their narrower format. -/
theorem weights_eq (c : Dev nD) :
    weights m c = truncf (F := Ideal) (φ := .f32) .bf16 (m ((c.tc : Thread nD τ).loc main_arg1)) bitsLt_bf16_f32 := by
  show StableHlo.after hostOps0 (fun b => m (c, b)) (Proc.devRef .tc main_v1) = _
  after_results <;> rfl

/-- The host lines after the region leave `result` of the arguments in @main's result buffer. -/
theorem tail_eq (c : Dev nD) :
    Pipeline.afterTail₀ cfgs (dats m) 0 (V0 m) [hostOps1] c main_v17
      = result (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v17) = _
  after_results
  have h3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans
      (V_main_arg3 m c)
  have h9 : Pipeline.withArrays (cfgs 0).spec c (V0 m c) (fun w => (dats m 0 c).arrAt w (cfgs 0).N) (Proc.devRef .tc main_v9)
      = offsetProducts (gatheredRows (m ((c.tc : Thread nD τ).loc main_arg0)) (m ((c.tc : Thread nD τ).loc main_arg2)))
          (truncf (F := Ideal) (φ := .f32) .bf16 (m ((c.tc : Thread nD τ).loc main_arg1)) bitsLt_bf16_f32) :=
    (Pipeline.withArrays_arr spec0 launch0.win.arr_inj c _ _ 2).trans
      ((final m c).trans (by rw [gathered_eq, weights_eq]))
  rw [h3, h9]
  rfl

/-- THE RUN, READ: every weakly fair execution of the idealized kernel terminates with its result buffer at `result`
    of the arguments, and the arguments as launched. -/
theorem run : θ_run defs (onTc (τ := τ) (main (F := Ideal))) ⟨m, fun _ => 0, ρ⟩ (fun r => ∀ c : Dev nD,
      r.2.mem ((c.tc : Thread nD τ).loc main_v17)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Products

end
-- ==== Proof.ReferenceProducts.lean ====
/-
  The reference's batched `dot_general` is the same array of per-offset products.

  The reference contracts the gathered rows `[27, 24576, 128]` with the weights `[27, 128, 128]` over the input
  channels, batching over the offset axis: entry `(k, p, o)` is the sum over channels `c` of the left operand at
  `(k, p, c)` times the right at `(k, c, o)` — `offsetProducts` of its two operands.
-/
import proofs.«109637_j35802847379859_2_alg».proof.Proof.Gen.ReferenceIdeal.Read
import proofs.«109637_j35802847379859_2_alg».proof.Proof.OffsetProducts

noncomputable section

open scoped BigOperators

namespace Cert.ReferenceIdeal.Products

open Cert.ReferenceIdeal Cert.ReferenceIdeal.Read Idealize.ShloMosaic Idealize.ShloMosaic.ValueIdx
open Cert.SparseConv

/-- The reference's product stage is `offsetProducts` of its gathered rows and the weights. -/
theorem products_eq (x0 : (⟨S65536x128, .f32⟩ : BufTy).Contents (Elt Ideal)) (x1 : (⟨S27x128x128, .f32⟩ : BufTy).Contents (Elt Ideal))
    (x2 : (⟨S27x24576, .i32⟩ : BufTy).Contents (Elt Ideal)) :
    val_main_v7 (F := Ideal) x0 x1 x2 = offsetProducts (val_main_v6 (F := Ideal) x0 x2) x1 := by
  funext i
  rw [val_main_v7_apply]
  show _ = ∑ c : Fin 128, _
  refine Finset.sum_congr rfl fun c _ => ?_
  have el : lidx_main_v7 i c = ix3 (i 0) (i 1) c := funext fun a => Fin.ext (by
    match a with
    | ⟨0, _⟩ => rfl
    | ⟨1, _⟩ => rfl
    | ⟨2, _⟩ => rfl)
  have er : ridx_main_v7 i c = ix3 (i 0) c (i 2) := funext fun a => Fin.ext (by
    match a with
    | ⟨0, _⟩ => rfl
    | ⟨1, _⟩ => rfl
    | ⟨2, _⟩ => rfl)
  rw [el, er]
  rfl

end Cert.ReferenceIdeal.Products

end
-- ==== Proof.ResultsAgree.lean ====
/-
  The two programs compute one function.

  Both gather the same input rows (the kernel from the activations in a narrower float format, which on extended reals
  is the same array), both form the per-offset products of those rows with the weights (`offsetProducts`: the kernel
  one offset per grid point on the matrix unit, the reference in one batched contraction), and both add the product
  rows onto the same output rows from zero.  No algebraic law is needed beyond reading the two contractions as the
  same finite sum, so the precondition is never opened.
-/
import proofs.«109637_j35802847379859_2_alg».proof.Proof.KernelRun
import proofs.«109637_j35802847379859_2_alg».proof.Proof.ReferenceProducts

noncomputable section

namespace Cert.SparseConv

open Idealize.ShloMosaic Idealize.ShloMosaic.ValueIdx

/-- Narrowing the float format leaves an array of extended reals as it is. -/
theorem narrowed_eq {s : Shape} (x : FVec Ideal s .f32) (h : FTy.bits .bf16 < FTy.bits .f32) :
    (truncf (F := Ideal) (φ := .f32) .bf16 x h : s.Idx → EReal) = x := funext fun _ => rfl

end Cert.SparseConv

namespace Cert.Proof.Agree

open Idealize.ShloMosaic Cert.SparseConv

/-- The kernel gathers the rows the reference gathers. -/
theorem rows_agree (x0 : Cert.ReferenceIdeal.S65536x128.Idx → EReal) (x2 : IVec Cert.ReferenceIdeal.S27x24576 32) :
    Cert.KernelIdeal.Products.gatheredRows x0 x2 = Cert.ReferenceIdeal.Read.val_main_v6 (F := Ideal) x0 x2 := by
  unfold Cert.KernelIdeal.Products.gatheredRows
  rw [narrowed_eq]
  rfl

/-- THE TWO RESULTS AGREE: the reference's scatter-add of its batched contraction is the kernel's `result`. -/
theorem results_agree (x0 : Cert.ReferenceIdeal.S65536x128.Idx → EReal) (x1 : Cert.ReferenceIdeal.S27x128x128.Idx → EReal)
    (x2 x3 : IVec Cert.ReferenceIdeal.S27x24576 32) :
    Cert.ReferenceIdeal.Read.val_main_v15 (F := Ideal) x0 x1 x2 x3 = Cert.KernelIdeal.Products.result x0 x1 x2 x3 := by
  unfold Cert.ReferenceIdeal.Read.val_main_v15 Cert.KernelIdeal.Products.result
  rw [Cert.ReferenceIdeal.Products.products_eq, narrowed_eq, rows_agree]
  rfl

end Cert.Proof.Agree

end
-- ==== Proof.lean ====
/-
  A sparse 3×3×3 convolution as 27 gather → matrix product → scatter-add passes, against its jnp reference.

  Inputs: activations `in_feats : [65536, 128]`, weights `kernel : [27, 128, 128]`, and two integer tables
  `imap, omap : [27, 24576]`.  For each kernel offset `k` and pair `p`, input row `imap[k, p]` is multiplied by
  the weight slab `kernel[k]` and the product row is added onto output row `omap[k, p]`:

      out[r, o] = ∑_{(k, p) : omap[k, p] = r} ∑_{c < 128} in_feats[imap[k, p], c] · kernel[k, c, o].

  The kernel does the gather and the scatter-add on the host and the 27 matrix products in one pipelined region, one
  offset per grid point, on operands narrowed to a 16-bit float format; the reference does one batched contraction
  on the 32-bit operands.  On extended reals the narrowing is the identity and both contractions are the same finite
  sum, so the two programs are one function of the arguments:
    * the frames of the two kernel programs are the generated ones, the reference's is its generated run;
    * the idealization rewrote nothing, so `preserves` is trivial;
    * `algebraic`: the kernel's run ends at `Products.result` of the arguments (Proof/KernelRun.lean, over
      Proof/KernelProducts.lean and Proof/MatmulBlock.lean), the reference's at its composed term, and the two are
      equal (Proof/ResultsAgree.lean, over Proof/ReferenceProducts.lean and the shared Proof/OffsetProducts.lean).
-/
import proofs.«109637_j35802847379859_2_alg».proof.Defs
import proofs.«109637_j35802847379859_2_alg».proof.Proof.Gen.Kernel
import proofs.«109637_j35802847379859_2_alg».proof.Proof.Gen.Kernel.Skeleton
import proofs.«109637_j35802847379859_2_alg».proof.Proof.Gen.Kernel.Launch
import proofs.«109637_j35802847379859_2_alg».proof.Proof.Gen.Kernel.Points
import proofs.«109637_j35802847379859_2_alg».proof.Proof.Gen.Kernel.Frame
import proofs.«109637_j35802847379859_2_alg».proof.Proof.Gen.KernelIdeal
import proofs.«109637_j35802847379859_2_alg».proof.Proof.Gen.KernelIdeal.Skeleton
import proofs.«109637_j35802847379859_2_alg».proof.Proof.Gen.KernelIdeal.Launch
import proofs.«109637_j35802847379859_2_alg».proof.Proof.Gen.KernelIdeal.Points
import proofs.«109637_j35802847379859_2_alg».proof.Proof.Gen.KernelIdeal.Frame
import proofs.«109637_j35802847379859_2_alg».proof.Proof.Gen.ReferenceIdeal
import proofs.«109637_j35802847379859_2_alg».proof.Proof.Gen.ReferenceIdeal.Run
import proofs.«109637_j35802847379859_2_alg».proof.Proof.Gen.ReferenceIdeal.Read
import proofs.«109637_j35802847379859_2_alg».proof.Proof.Gen.Pre_finite_inputs
import proofs.«109637_j35802847379859_2_alg».proof.Proof.ResultsAgree
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end at the scatter-add of the per-offset products of
    the gathered rows with the weights: the kernel by its run read back, the reference by its generated run, the two
    terms equal by `results_agree`. -/
theorem algebraic : Cert.algebraic_KernelIdeal_ReferenceIdeal := by
  intro m ρ m' ρ' _ hagree
  refine ⟨fun c => Cert.KernelIdeal.Products.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Products.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v15_eq _ _ _ _).trans (Cert.Proof.Agree.results_agree _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
